-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x36x1024 : Shape := ⟨3, ![4096, 36, 1024]⟩
abbrev S4096x32x1024 : Shape := ⟨3, ![4096, 32, 1024]⟩
abbrev S4096 : Shape := ⟨1, ![4096]⟩
abbrev S256x1024 : Shape := ⟨2, ![256, 1024]⟩
abbrev S256 : Shape := ⟨1, ![256]⟩
abbrev S1024x256 : Shape := ⟨2, ![1024, 256]⟩
abbrev S1024 : Shape := ⟨1, ![1024]⟩
abbrev S_ : Shape := ⟨0, ![]⟩
abbrev S4096x1024 : Shape := ⟨2, ![4096, 1024]⟩

class Facts : Prop where
  bcast_S_S4096x36x1024 : S_.BroadcastsInDim S4096x36x1024 (![] : Fin 0 → Fin S4096x36x1024.rank)
  reducesTo_S4096x36x1024_S_d0_1_2 : S4096x36x1024.ReducesTo [0, 1, 2] S_
  h_S_ : 0 < S_.numel
  bcast_S_S4096x32x1024 : S_.BroadcastsInDim S4096x32x1024 (![] : Fin 0 → Fin S4096x32x1024.rank)
  reducesTo_S4096x32x1024_S_d0_1_2 : S4096x32x1024.ReducesTo [0, 1, 2] S_
  bcast_S_S256x1024 : S_.BroadcastsInDim S256x1024 (![] : Fin 0 → Fin S256x1024.rank)
  reducesTo_S256x1024_S_d0_1 : S256x1024.ReducesTo [0, 1] S_
  bcast_S_S256 : S_.BroadcastsInDim S256 (![] : Fin 0 → Fin S256.rank)
  reducesTo_S256_S_d0 : S256.ReducesTo [0] S_
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_
  reducesTo_S4096x36x1024_S4096x1024_d1 : S4096x36x1024.ReducesTo [1] S4096x1024
  reducesTo_S4096x1024_S4096_d1 : S4096x1024.ReducesTo [1] S4096
  bcast_S_S4096 : S_.BroadcastsInDim S4096 (![] : Fin 0 → Fin S4096.rank)
  reducesTo_S4096_S_d0 : S4096.ReducesTo [0] S_

variable [Facts]

def fn_part2 {F : FTy → Type} [FloatOps F] (main_v28 : IVec S_ 1) (main_v32 : FVec F S4096 .f32) : IVec S_ 1 :=
  let main_cst_13 : FVec F S_ .f32 := constant S_ .f32 0x00000000#32
  let main_v33 : FVec F S4096 .f32 := broadcastInDim S4096 ![] bcast_S_S4096 main_cst_13
  let main_v34 : IVec S4096 1 := cmpf .ogt main_v32 main_v33
  let main_c_14 : IVec S_ 1 := constantI S_ 1 1#1
  let main_v35 : IVec S_ 1 := (fun x v => Host.reduce IntOp.andi x v reducesTo_S4096_S_d0 h_S_) main_v34 main_c_14
  let main_v36 : IVec S_ 1 := andi main_v28 main_v35
  main_v36

def fn_part1 {F : FTy → Type} [FloatOps F] (main_arg0 : FVec F S4096x36x1024 .f32) (main_arg5 : FVec F S1024x256 .f32) (main_arg6 : FVec F S1024 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S1024x256 .f32 := Host.absf main_arg5
  let main_cst_6 : FVec F S_ .f32 := constant S_ .f32 0x7F800000#32
  let main_v20 : FVec F S1024x256 .f32 := broadcastInDim S1024x256 ![] bcast_S_S1024x256 main_cst_6
  let main_v21 : IVec S1024x256 1 := cmpf .olt main_v19 main_v20
  let main_c_7 : IVec S_ 1 := constantI S_ 1 1#1
  let main_v22 : IVec S_ 1 := (fun x v => Host.reduce IntOp.andi x v reducesTo_S1024x256_S_d0_1 h_S_) main_v21 main_c_7
  let main_v23 : IVec S_ 1 := andi main_v18 main_v22
  let main_v24 : FVec F S1024 .f32 := Host.absf main_arg6
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_cst_10 : FVec F S_ .f32 := constant S_ .f32 0x00000000#32
  let main_v29 : FVec F S4096x1024 .f32 := (fun x v => Host.reduceAdd x v reducesTo_S4096x36x1024_S4096x1024_d1 h_S_) main_arg0 main_cst_10
  let main_cst_11 : FVec F S_ .f32 := constant S_ .f32 0x00000000#32
  let main_v30 : FVec F S4096x1024 .f32 := (fun x v => Host.reduceAdd x v reducesTo_S4096x36x1024_S4096x1024_d1 h_S_) main_arg0 main_cst_11
  let main_v31 : FVec F S4096x1024 .f32 := mulf main_v29 main_v30
  let main_cst_12 : FVec F S_ .f32 := constant S_ .f32 0x00000000#32
  let main_v32 : FVec F S4096 .f32 := (fun x v => Host.reduceAdd x v reducesTo_S4096x1024_S4096_d1 h_S_) main_v31 main_cst_12
  fn_part2 (F := F) main_v28 main_v32

def fn {F : FTy → Type} [FloatOps F] (main_arg0 : FVec F S4096x36x1024 .f32) (main_arg1 : FVec F S4096x32x1024 .f32) (main_arg2 : IVec S4096 32) (main_arg3 : FVec F S256x1024 .f32) (main_arg4 : FVec F S256 .f32) (main_arg5 : FVec F S1024x256 .f32) (main_arg6 : FVec F S1024 .f32) : IVec S_ 1 :=
  let main_v0 : FVec F S4096x36x1024 .f32 := Host.absf main_arg0
  let main_cst : FVec F S_ .f32 := constant S_ .f32 0x7F800000#32
  let main_v1 : FVec F S4096x36x1024 .f32 := broadcastInDim S4096x36x1024 ![] bcast_S_S4096x36x1024 main_cst
  let main_v2 : IVec S4096x36x1024 1 := cmpf .olt main_v0 main_v1
  let main_c : IVec S_ 1 := constantI S_ 1 1#1
  let main_v3 : IVec S_ 1 := (fun x v => Host.reduce IntOp.andi x v reducesTo_S4096x36x1024_S_d0_1_2 h_S_) main_v2 main_c
  let main_v4 : FVec F S4096x32x1024 .f32 := Host.absf main_arg1
  let main_cst_0 : FVec F S_ .f32 := constant S_ .f32 0x7F800000#32
  let main_v5 : FVec F S4096x32x1024 .f32 := broadcastInDim S4096x32x1024 ![] bcast_S_S4096x32x1024 main_cst_0
  let main_v6 : IVec S4096x32x1024 1 := cmpf .olt main_v4 main_v5
  let main_c_1 : IVec S_ 1 := constantI S_ 1 1#1
  let main_v7 : IVec S_ 1 := (fun x v => Host.reduce IntOp.andi x v reducesTo_S4096x32x1024_S_d0_1_2 h_S_) main_v6 main_c_1
  let main_v8 : IVec S_ 1 := andi main_v3 main_v7
  let main_v9 : FVec F S256x1024 .f32 := Host.absf main_arg3
  let main_cst_2 : FVec F S_ .f32 := constant S_ .f32 0x7F800000#32
  let main_v10 : FVec F S256x1024 .f32 := broadcastInDim S256x1024 ![] bcast_S_S256x1024 main_cst_2
  let main_v11 : IVec S256x1024 1 := cmpf .olt main_v9 main_v10
  let main_c_3 : IVec S_ 1 := constantI S_ 1 1#1
  let main_v12 : IVec S_ 1 := (fun x v => Host.reduce IntOp.andi x v reducesTo_S256x1024_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg0 main_arg5 main_arg6 main_v13 main_v16
-- ==== Kernel.lean ====
abbrev S4096x36x1024 : Shape := ⟨3, ![4096, 36, 1024]⟩
abbrev S4096x32x1024 : Shape := ⟨3, ![4096, 32, 1024]⟩
abbrev S4096 : Shape := ⟨1, ![4096]⟩
abbrev S256x1024 : Shape := ⟨2, ![256, 1024]⟩
abbrev S256 : Shape := ⟨1, ![256]⟩
abbrev S1024x256 : Shape := ⟨2, ![1024, 256]⟩
abbrev S1024 : Shape := ⟨1, ![1024]⟩
abbrev S4096x1x1024 : Shape := ⟨3, ![4096, 1, 1024]⟩
abbrev S4096x1024 : Shape := ⟨2, ![4096, 1024]⟩
abbrev S4096x256 : Shape := ⟨2, ![4096, 256]⟩
abbrev S1x256 : Shape := ⟨2, ![1, 256]⟩
abbrev S1x1024 : Shape := ⟨2, ![1, 1024]⟩
abbrev S_ : Shape := ⟨0, ![]⟩
abbrev S4096x1 : Shape := ⟨2, ![4096, 1]⟩
abbrev S4096x4096 : Shape := ⟨2, ![4096, 4096]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 44
  | .vmem => 10
  | .smem => 0
  | _ => 0

abbrev bufTy : (tb : Table) → Fin (tcTables nBuf tb) → BufTy
  | .hbm, ⟨0, _⟩ => ⟨S4096x36x1024, .f32⟩
  | .hbm, ⟨1, _⟩ => ⟨S4096x32x1024, .f32⟩
  | .hbm, ⟨2, _⟩ => ⟨S4096, .i32⟩
  | .hbm, ⟨3, _⟩ => ⟨S256x1024, .f32⟩
  | .hbm, ⟨4, _⟩ => ⟨S256, .f32⟩
  | .hbm, ⟨5, _⟩ => ⟨S1024x256, .f32⟩
  | .hbm, ⟨6, _⟩ => ⟨S1024, .f32⟩
  | .hbm, ⟨7, _⟩ => ⟨S4096x1x1024, .f32⟩
  | .hbm, ⟨8, _⟩ => ⟨S4096x1024, .f32⟩
  | .hbm, ⟨9, _⟩ => ⟨S1024x256, .f32⟩
  | .hbm, ⟨10, _⟩ => ⟨S4096x256, .f32⟩
  | .hbm, ⟨11, _⟩ => ⟨S1x256, .f32⟩
  | .hbm, ⟨12, _⟩ => ⟨S4096x256, .f32⟩
  | .hbm, ⟨13, _⟩ => ⟨S4096x256, .f32⟩
  | .hbm, ⟨14, _⟩ => ⟨S256x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .bf16⟩
  | .hbm, ⟨40, _⟩ => ⟨S4096x1024, .bf16⟩
  | .hbm, ⟨41, _⟩ => ⟨S4096x1024, .bf16⟩
  | .hbm, ⟨42, _⟩ => ⟨S4096x1024, .bf16⟩
  | .hbm, ⟨43, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x512, .f32⟩
  | .local _ .vmem, ⟨9, _⟩ => ⟨S1024x512, .f32⟩
  | _, _ => ⟨S4096x36x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  slices_S4096x32x1024_S4096x1x1024_0_0_0 : S4096x32x1024.Slices ![0, 0, 0] S4096x1x1024
  shapeCasts_S4096x1x1024_S4096x1024 : S4096x1x1024.ShapeCasts S4096x1024
  transposes_S256x1024_S1024x256_1_0 : S256x1024.Transposes [1, 0] S1024x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  transposes_S1024x256_S256x1024_1_0 : S1024x256.Transposes [1, 0] S256x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  reducesTo_S4096x36x1024_S4096x1024_d1 : S4096x36x1024.ReducesTo [1] S4096x1024
  h_S_ : 0 < S_.numel
  reducesTo_S4096x1024_S4096_d1 : S4096x1024.ReducesTo [1] S4096
  bcast_S4096_S4096x1_0 : S4096.BroadcastsInDim S4096x1 (![0] : Fin 1 → Fin S4096x1.rank)
  bcast_S4096x1_S4096x1024_0_1 : S4096x1.BroadcastsInDim S4096x1024 (![0, 1] : Fin 2 → Fin S4096x1024.rank)
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x512_S1024x512_0_0 : ∀ a, (![0, 0] : Fin 2 → Nat) a + S1024x512.size a ≤ S1024x512.size a
  h_S1024x512 : 0 < S1024x512.numel
  dot_S4096x1024_S1024x256_S4096x256_1_0_0_1_n_n_wf : DotDims.WF S4096x1024 S1024x256 S4096x256 [1] [0] [0] [1] [] []
  dot_S4096x256_S256x1024_S4096x1024_1_0_0_1_n_n_wf : DotDims.WF S4096x256 S256x1024 S4096x1024 [1] [0] [0] [1] [] []
  dot_S1024x1024_S512x1024_S1024x512_1_1_0_0_n_n_wf : DotDims.WF S1024x1024 S512x1024 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .bf16 = 32 ∨ (Rect.block (s := S4096x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x1024.size a
  hwx0_1 : ∀ i : grid0.Coords, EltTy.bits .bf16 = 32 ∨ (Rect.block (s := S4096x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x1024.size a
  hwx0_2 : ∀ i : grid0.Coords, EltTy.bits .bf16 = 32 ∨ (Rect.block (s := S4096x1024) S512x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x1024.size a
  hwx0_3 : ∀ i : grid0.Coords, EltTy.bits .bf16 = 32 ∨ (Rect.block (s := S4096x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S4096x4096.size a
  hwx0_4 : ∀ i : grid0.Coords, EltTy.bits .f32 = 32 ∨ (Rect.block (s := S4096x4096) S1024x512.size (cc0_transform_4 i) (hinb0_4 i)).WholeWords (EltTy.packing .f32)

variable [Facts₀]

def dot_S4096x1024_S1024x256_S4096x256_1_0_0_1_n_n : DotDims S4096x1024 S1024x256 S4096x256 where
  lhsContracting := [1]
  rhsContracting := [0]
  lhsNonContracting := [0]
  rhsNonContracting := [1]
  lhsBatch := []
  rhsBatch := []
  wf := dot_S4096x1024_S1024x256_S4096x256_1_0_0_1_n_n_wf
def dot_S4096x256_S256x1024_S4096x1024_1_0_0_1_n_n : DotDims S4096x256 S256x1024 S4096x1024 where
  lhsContracting := [1]
  rhsContracting := [0]
  lhsNonContracting := [0]
  rhsNonContracting := [1]
  lhsBatch := []
  rhsBatch := []
  wf := dot_S4096x256_S256x1024_S4096x1024_1_0_0_1_n_n_wf
def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_v28) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v31) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v32) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x36x1024 : Shape := ⟨3, ![4096, 36, 1024]⟩
abbrev S4096x32x1024 : Shape := ⟨3, ![4096, 32, 1024]⟩
abbrev S4096 : Shape := ⟨1, ![4096]⟩
abbrev S256x1024 : Shape := ⟨2, ![256, 1024]⟩
abbrev S256 : Shape := ⟨1, ![256]⟩
abbrev S1024x256 : Shape := ⟨2, ![1024, 256]⟩
abbrev S1024 : Shape := ⟨1, ![1024]⟩
abbrev S4096x1x1024 : Shape := ⟨3, ![4096, 1, 1024]⟩
abbrev S4096x1024 : Shape := ⟨2, ![4096, 1024]⟩
abbrev S4096x256 : Shape := ⟨2, ![4096, 256]⟩
abbrev S1x256 : Shape := ⟨2, ![1, 256]⟩
abbrev S1x1024 : Shape := ⟨2, ![1, 1024]⟩
abbrev S_ : Shape := ⟨0, ![]⟩
abbrev S4096x1 : Shape := ⟨2, ![4096, 1]⟩
abbrev S1024x4096 : Shape := ⟨2, ![1024, 4096]⟩
abbrev S4096x4096 : Shape := ⟨2, ![4096, 4096]⟩

abbrev nBuf : Space → Nat
  | .hbm => 45
  | .vmem => 0
  | .smem => 0
  | _ => 0

abbrev bufTy : (tb : Table) → Fin (tcTables nBuf tb) → BufTy
  | .hbm, ⟨0, _⟩ => ⟨S4096x36x1024, .f32⟩
  | .hbm, ⟨1, _⟩ => ⟨S4096x32x1024, .f32⟩
  | .hbm, ⟨2, _⟩ => ⟨S4096, .i32⟩
  | .hbm, ⟨3, _⟩ => ⟨S256x1024, .f32⟩
  | .hbm, ⟨4, _⟩ => ⟨S256, .f32⟩
  | .hbm, ⟨5, _⟩ => ⟨S1024x256, .f32⟩
  | .hbm, ⟨6, _⟩ => ⟨S1024, .f32⟩
  | .hbm, ⟨7, _⟩ => ⟨S4096x1x1024, .f32⟩
  | .hbm, ⟨8, _⟩ => ⟨S4096x1024, .f32⟩
  | .hbm, ⟨9, _⟩ => ⟨S1024x256, .f32⟩
  | .hbm, ⟨10, _⟩ => ⟨S4096x256, .f32⟩
  | .hbm, ⟨11, _⟩ => ⟨S1x256, .f32⟩
  | .hbm, ⟨12, _⟩ => ⟨S4096x256, .f32⟩
  | .hbm, ⟨13, _⟩ => ⟨S4096x256, .f32⟩
  | .hbm, ⟨14, _⟩ => ⟨S256x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S1024x4096, .f32⟩
  | .hbm, ⟨38, _⟩ => ⟨S4096x4096, .f32⟩
  | .hbm, ⟨39, _⟩ => ⟨S4096x1024, .f32⟩
  | .hbm, ⟨40, _⟩ => ⟨S4096x1024, .f32⟩
  | .hbm, ⟨41, _⟩ => ⟨S1024x4096, .f32⟩
  | .hbm, ⟨42, _⟩ => ⟨S4096x4096, .f32⟩
  | .hbm, ⟨43, _⟩ => ⟨S4096x4096, .f32⟩
  | .hbm, ⟨44, _⟩ => ⟨S4096x4096, .f32⟩
  | _, _ => ⟨S4096x36x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]

class Facts₀ : Prop where
  slices_S4096x32x1024_S4096x1x1024_0_0_0 : S4096x32x1024.Slices ![0, 0, 0] S4096x1x1024
  shapeCasts_S4096x1x1024_S4096x1024 : S4096x1x1024.ShapeCasts S4096x1024
  transposes_S256x1024_S1024x256_1_0 : S256x1024.Transposes [1, 0] S1024x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  transposes_S1024x256_S256x1024_1_0 : S1024x256.Transposes [1, 0] S256x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  reducesTo_S4096x36x1024_S4096x1024_d1 : S4096x36x1024.ReducesTo [1] S4096x1024
  h_S_ : 0 < S_.numel
  reducesTo_S4096x1024_S4096_d1 : S4096x1024.ReducesTo [1] S4096
  bcast_S4096_S4096x1_0 : S4096.BroadcastsInDim S4096x1 (![0] : Fin 1 → Fin S4096x1.rank)
  bcast_S4096x1_S4096x1024_0_1 : S4096x1.BroadcastsInDim S4096x1024 (![0, 1] : Fin 2 → Fin S4096x1024.rank)
  transposes_S4096x1024_S1024x4096_1_0 : S4096x1024.Transposes [1, 0] S1024x4096
  dot_S4096x1024_S1024x256_S4096x256_1_0_0_1_n_n_wf : DotDims.WF S4096x1024 S1024x256 S4096x256 [1] [0] [0] [1] [] []
  dot_S4096x256_S256x1024_S4096x1024_1_0_0_1_n_n_wf : DotDims.WF S4096x256 S256x1024 S4096x1024 [1] [0] [0] [1] [] []
  dot_S4096x1024_S1024x4096_S4096x4096_1_0_0_1_n_n_wf : DotDims.WF S4096x1024 S1024x4096 S4096x4096 [1] [0] [0] [1] [] []

variable [Facts₀]

def dot_S4096x1024_S1024x256_S4096x256_1_0_0_1_n_n : DotDims S4096x1024 S1024x256 S4096x256 where
  lhsContracting := [1]
  rhsContracting := [0]
  lhsNonContracting := [0]
  rhsNonContracting := [1]
  lhsBatch := []
  rhsBatch := []
  wf := dot_S4096x1024_S1024x256_S4096x256_1_0_0_1_n_n_wf
def dot_S4096x256_S256x1024_S4096x1024_1_0_0_1_n_n : DotDims S4096x256 S256x1024 S4096x1024 where
  lhsContracting := [1]
  rhsContracting := [0]
  lhsNonContracting := [0]
  rhsNonContracting := [1]
  lhsBatch := []
  rhsBatch := []
  wf := dot_S4096x256_S256x1024_S4096x1024_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.LibFinite.lean ====
/-
  Finite extended reals and the operations that keep them finite.

  An extended real is FINITE when it is the cast of a real number. The laws that fail at the infinities
  (distributivity, cancelling a subtraction, moving a factor across a sum) hold between finite values, so a proof that
  needs one of them first shows that the values it is applied to are finite. Finite values are closed under sums,
  differences, products, finite sums, maxima, the quotient by a nonzero finite value, and the reciprocal square root of
  a positive one; a scatter that ADDS finite updates into a finite array leaves it finite, whatever the indices say
  (an entry receives the sum of the updates that land on it, a finite sum, possibly empty).
-/
import Mathlib.Data.EReal.Operations
import Mathlib.Algebra.BigOperators.Ring.Finset
import Idealize.ShloMosaic.PureOps.Ideal

namespace Cert.Finite

open Idealize.ShloMosaic

/-- The extended real `x` is the cast of a real number. -/
def IsReal (x : EReal) : Prop := ∃ r : ℝ, x = (r : EReal)

theorem isReal_coe (r : ℝ) : IsReal (r : EReal) := ⟨r, rfl⟩

theorem isReal_zero : IsReal (0 : EReal) := ⟨0, rfl⟩

theorem isReal_one : IsReal (1 : EReal) := ⟨1, rfl⟩

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

/-- Finite is: neither infinity. -/
theorem isReal_iff {x : EReal} : IsReal x ↔ x ≠ ⊤ ∧ x ≠ ⊥ := by
  refine ⟨fun h => ⟨h.ne_top, h.ne_bot⟩, fun ⟨ht, hb⟩ => ?_⟩
  induction x using EReal.rec with
  | bot => exact absurd rfl hb
  | coe r => exact ⟨r, rfl⟩
  | top => exact absurd rfl ht

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (max x y) := by
  rcases max_choice x y with h | h <;> rw [h] <;> assumption

/-- A finite sum of finite values is finite. -/
theorem IsReal.sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The quotient of a finite value by a nonzero finite one is finite. -/
theorem IsReal.div_coe {x : EReal} (hx : IsReal x) {y : ℝ} (hy : y ≠ 0) : IsReal (Ideal.div x (y : EReal)) := by
  rw [Ideal.div_coe hy]; exact hx.mul (isReal_coe _)

/-- In particular by a finite value that is at least one (a count of neighbours clamped from below at one). -/
theorem IsReal.div_of_one_le {x y : EReal} (hx : IsReal x) (hy : IsReal y) (h1 : 1 ≤ y) : IsReal (Ideal.div x y) := by
  obtain ⟨b, rfl⟩ := hy
  have hb : (1 : ℝ) ≤ b := by exact_mod_cast h1
  exact hx.div_coe (by linarith : b ≠ 0)

/-- The reciprocal square root of a positive finite value is finite. -/
theorem isReal_rsqrt_of_pos {r : ℝ} (hr : 0 < r) : IsReal (Ideal.rsqrt (r : EReal)) := by
  rw [Ideal.rsqrt_coe, if_neg (not_lt.2 hr.le), if_neg hr.ne']
  exact isReal_coe _

/-- A row of a matrix product: the sum of the products of finite entries is finite. -/
theorem isReal_dot {K : Type*} [Fintype K] (a b : K → EReal) (ha : ∀ k, IsReal (a k)) (hb : ∀ k, IsReal (b k)) :
    IsReal (∑ k, a k * b k) :=
  IsReal.sum _ _ fun k _ => (ha k).mul (hb k)

/-- A scatter that adds finite updates into a finite array leaves every entry finite, whatever the indices are. -/
theorem isReal_hostScatterAdd {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) :=
  (hx i).add (IsReal.sum _ _ fun j _ => hu j)

end Cert.Finite
-- ==== Proof.PreFacts.lean ====
/-
  What the precondition gives the bridge: every float argument is finite, and every image's summed region vector
  s(b,·) = ∑ᵣ img(b,r,·) has a positive squared norm (it is not the zero vector); and what follows for the two
  intermediate arrays the bridge's law speaks of: the summed vectors are finite, and every gate
  g(i,k) = 1 / (1 + exp(−x(i,k))) — x the finite pre-activation, two matrix products of finite entries with their
  biases — is a positive real.
-/
import proofs.«125073_j55267639165045_2_alg».proof.Proof.Gen.Pre_finite_inputs
import proofs.«125073_j55267639165045_2_alg».proof.Proof.Gen.ReferenceIdeal.Read
import proofs.«125073_j55267639165045_2_alg».proof.Proof.LibFinite
import Idealize.ShloMosaic.Lib.ReduceAll
import Idealize.ShloMosaic.Lib.IdealHost

noncomputable section

namespace Cert.PreFacts

open Idealize.ShloMosaic Idealize.ShloMosaic.ValueIdx Cert.Finite Cert.ReferenceIdeal Cert.ReferenceIdeal.Read

/-! ## Reading one `jnp.all` of the precondition -/

/-- The rank-zero shape has one index. -/
instance subsingleton_idx0 : Subsingleton (⟨0, ![]⟩ : Shape).Idx := ⟨fun a b => funext fun d => d.elim0⟩

/-- The word 0x7F800000 is +∞. -/
theorem ofBits_inf : Ideal.ofBits .f32 0x7F800000#32 = (⊤ : EReal) := by
  simp [Ideal.ofBits, Ideal.ieee]

/-- An extended real whose absolute value max(x, −x) is below +∞ is finite: at −∞ and at +∞ the maximum is +∞. -/
theorem isReal_of_abs_lt_top (x : EReal) (h : Ideal.cmp .olt (max x (-x)) (⊤ : EReal) = 1#1) : IsReal x := by
  induction x using EReal.rec with
  | bot => simp [Ideal.cmp] at h
  | coe r => exact ⟨r, rfl⟩
  | top => simp [Ideal.cmp] at h

/-- `jnp.all(|x| < +inf)`, read: a reduction by `and` over every axis that came out 1 met a 1 at every index, and a 1
    there says that entry's absolute value is below +∞. -/
theorem isReal_of_all {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
          (cmpf .olt (Host.absf x) (broadcastInDim s ![] hb (constant (F := Ideal) (⟨0, ![]⟩ : Shape) .f32 0x7F800000#32)))
          (constantI (⟨0, ![]⟩ : Shape) 1 1#1) hr hu ix0 = 1#1) (i : s.Idx) : IsReal (x i) := by
  have hi := Host.reduce_andi_all _ _ hr hu ix0 e i
  refine isReal_of_abs_lt_top (x i) ?_
  rw [← ofBits_inf]
  exact hi

/-- `jnp.all(sum_k v(b,k)*v(b,k) > 0)`, read: at every row b the sum over k of the squares is positive. The inner sum
    over the last axis is the initial value, the zero word, plus the sum over that axis's 1024 coordinates, and the index
    it reads at coordinate k of row b is (b, k). -/
theorem pos_of_all (v : FVec Ideal (⟨2, ![4096, 1024]⟩ : Shape) .f32)
    (hr1 : (⟨2, ![4096, 1024]⟩ : Shape).ReducesTo [1] (⟨1, ![4096]⟩ : Shape))
    (hb : (⟨0, ![]⟩ : Shape).BroadcastsInDim (⟨1, ![4096]⟩ : Shape) (![] : Fin 0 → Fin (⟨1, ![4096]⟩ : Shape).rank))
    (hr0 : (⟨1, ![4096]⟩ : Shape).ReducesTo [0] (⟨0, ![]⟩ : Shape)) (hu : 0 < (⟨0, ![]⟩ : Shape).numel)
    (e : Host.reduce IntOp.andi
          (cmpf .ogt (Host.reduceAdd (mulf v v) (constant (F := Ideal) (⟨0, ![]⟩ : Shape) .f32 0x00000000#32) hr1 hu)
            (broadcastInDim (⟨1, ![4096]⟩ : Shape) ![] hb (constant (F := Ideal) (⟨0, ![]⟩ : Shape) .f32 0x00000000#32)))
          (constantI (⟨0, ![]⟩ : Shape) 1 1#1) hr0 hu ix0 = 1#1) (b : Fin 4096) :
    (0 : EReal) < ∑ k : Fin 1024, v (ix2 b k) * v (ix2 b k) := by
  have hi := Host.reduce_andi_all _ _ hr0 hu ix0 e (ix1 b)
  have hi' : Ideal.cmp .ogt (Ideal.hostReduceAdd hr1 (mulf v v) (Ideal.ofBits .f32 0x00000000#32) (ix1 b))
      (Ideal.ofBits .f32 0x00000000#32) = 1#1 := hi
  have key : Ideal.hostReduceAdd hr1 (mulf v v) (Ideal.ofBits .f32 0x00000000#32) (ix1 b)
      = ∑ k : Fin 1024, v (ix2 b k) * v (ix2 b k) := by
    rw [Ideal.hostReduceAdd_single hr1 (by decide), Ideal.ofBits_zero_f32, zero_add]
    refine Finset.sum_congr rfl fun k _ => ?_
    have ek : (by decide : (⟨2, ![4096, 1024]⟩ : Shape).Reduces [1] (⟨1, ![4096]⟩ : Shape)).lift (ix1 b) k = ix2 b k :=
      funext fun a => Fin.ext (by match a with | ⟨0, _⟩ => rfl | ⟨1, _⟩ => rfl)
    rw [ek]
    rfl
  rw [key, Ideal.ofBits_zero_f32] at hi'
  -- the comparison "greater than zero" came out 1, so it is not the false case
  have hd : BitVec.ofBool (decide ((0 : EReal) < ∑ k : Fin 1024, v (ix2 b k) * v (ix2 b k))) = 1#1 := hi'
  by_contra hn
  rw [decide_eq_false hn] at hd
  exact absurd hd (by decide)

/-! ## The three facts -/

/-- The precondition, read: the six float arguments are finite, and for every image b the squares of its summed
    region vector's entries add up to a positive value. -/
theorem of_pre (x0 : (⟨S4096x36x1024, .f32⟩ : BufTy).Contents (Elt Ideal)) (x1 : (⟨S4096x32x1024, .f32⟩ : BufTy).Contents (Elt Ideal))
    (x2 : (⟨S4096, .i32⟩ : BufTy).Contents (Elt Ideal)) (x3 : (⟨S256x1024, .f32⟩ : BufTy).Contents (Elt Ideal))
    (x4 : (⟨S256, .f32⟩ : BufTy).Contents (Elt Ideal)) (x5 : (⟨S1024x256, .f32⟩ : BufTy).Contents (Elt Ideal))
    (x6 : (⟨S1024, .f32⟩ : BufTy).Contents (Elt Ideal))
    (h : Cert.Pre_finite_inputs.fn (F := Ideal) x0 x1 x2 x3 x4 x5 x6 = fun _ => 1#1) :
    (∀ i, IsReal (x0 i)) ∧ (∀ i, IsReal (x1 i)) ∧ (∀ i, IsReal (x3 i)) ∧ (∀ i, IsReal (x4 i)) ∧ (∀ i, IsReal (x5 i))
      ∧ (∀ i, IsReal (x6 i))
      ∧ ∀ b : Fin 4096, (0 : EReal) < ∑ k : Fin 1024, val_main_v18 (F := Ideal) x0 (ix2 b k) * val_main_v18 (F := Ideal) x0 (ix2 b k) := by
  -- the predicate's one result is the conjunction of seven reductions by `and`
  have h0 := congrFun h ValueIdx.ix0
  dsimp only [Cert.Pre_finite_inputs.fn, Cert.Pre_finite_inputs.fn_part1, Cert.Pre_finite_inputs.fn_part2, andi] at h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h1⟩ := IntOp.andi_eq_one.1 h0
  refine ⟨fun i => isReal_of_all x0 _ _ _ h0 i, fun i => isReal_of_all x1 _ _ _ h1 i, fun i => isReal_of_all x3 _ _ _ h3 i,
    fun i => isReal_of_all x4 _ _ _ h4 i, fun i => isReal_of_all x5 _ _ _ h5 i, fun i => isReal_of_all x6 _ _ _ h6 i, ?_⟩
  -- the predicate's own summed vector is the reference's: the same sum over the 36 regions from the zero word
  exact fun b => pos_of_all (val_main_v18 (F := Ideal) x0) _ _ _ _ h7 b

/-- A sum of finite region vectors is finite. -/
theorem s_real (x0 : (⟨S4096x36x1024, .f32⟩ : BufTy).Contents (Elt Ideal)) (h0 : ∀ i, IsReal (x0 i)) (i : S4096x1024.Idx) :
    IsReal (val_main_v18 (F := Ideal) x0 i) := by
  rw [val_main_v18_apply, val_main_cst_1_apply, Ideal.ofBits_def, Ideal.ofBits_zero_f32]
  exact isReal_zero.add (IsReal.sum _ _ fun k _ => h0 _)

/-! ## The pre-activation is finite, stage by stage -/

section Chain

variable (x1 : (⟨S4096x32x1024, .f32⟩ : BufTy).Contents (Elt Ideal)) (x3 : (⟨S256x1024, .f32⟩ : BufTy).Contents (Elt Ideal))
  (x4 : (⟨S256, .f32⟩ : BufTy).Contents (Elt Ideal)) (x5 : (⟨S1024x256, .f32⟩ : BufTy).Contents (Elt Ideal))
  (x6 : (⟨S1024, .f32⟩ : BufTy).Contents (Elt Ideal))

/-- The first text row of every image, as a matrix: each entry is an entry of the text array. -/
theorem v1_real (h1 : ∀ i, IsReal (x1 i)) (i : S4096x1024.Idx) : IsReal (val_main_v1 (F := Ideal) x1 i) := by
  rw [val_main_v1_apply, val_main_v0_apply]; exact h1 _

/-- The first weight matrix, transposed. -/
theorem v2_real (h3 : ∀ i, IsReal (x3 i)) (i : S1024x256.Idx) : IsReal (val_main_v2 (F := Ideal) x3 i) := by
  rw [val_main_v2_apply]; exact h3 _

/-- The first matrix product: a finite sum of products of finite entries. -/
theorem v3_real (h1 : ∀ i, IsReal (x1 i)) (h3 : ∀ i, IsReal (x3 i)) (i : S4096x256.Idx) :
    IsReal (val_main_v3 (F := Ideal) x1 x3 i) := by
  rw [val_main_v3_apply]
  exact isReal_dot _ _ (fun k => v1_real x1 h1 _) (fun k => v2_real x3 h3 _)

/-- The first bias, broadcast along the rows. -/
theorem v5_real (h4 : ∀ i, IsReal (x4 i)) (i : S4096x256.Idx) : IsReal (val_main_v5 (F := Ideal) x4 i) := by
  rw [val_main_v5_apply, val_main_v4_apply]; exact h4 _

/-- The hidden layer: product plus bias. -/
theorem v6_real (h1 : ∀ i, IsReal (x1 i)) (h3 : ∀ i, IsReal (x3 i)) (h4 : ∀ i, IsReal (x4 i)) (i : S4096x256.Idx) :
    IsReal (val_main_v6 (F := Ideal) x1 x3 x4 i) := by
  rw [val_main_v6_apply, Ideal.addf_def]
  exact (v3_real x1 x3 h1 h3 i).add (v5_real x4 h4 i)

/-- The second weight matrix, transposed. -/
theorem v7_real (h5 : ∀ i, IsReal (x5 i)) (i : S256x1024.Idx) : IsReal (val_main_v7 (F := Ideal) x5 i) := by
  rw [val_main_v7_apply]; exact h5 _

/-- The second matrix product. -/
theorem v8_real (h1 : ∀ i, IsReal (x1 i)) (h3 : ∀ i, IsReal (x3 i)) (h4 : ∀ i, IsReal (x4 i)) (h5 : ∀ i, IsReal (x5 i))
    (i : S4096x1024.Idx) : IsReal (val_main_v8 (F := Ideal) x1 x3 x4 x5 i) := by
  rw [val_main_v8_apply]
  exact isReal_dot _ _ (fun k => v6_real x1 x3 x4 h1 h3 h4 _) (fun k => v7_real x5 h5 _)

/-- The second bias, broadcast along the rows. -/
theorem v10_real (h6 : ∀ i, IsReal (x6 i)) (i : S4096x1024.Idx) : IsReal (val_main_v10 (F := Ideal) x6 i) := by
  rw [val_main_v10_apply, val_main_v9_apply]; exact h6 _

/-- The pre-activation: second product plus second bias. -/
theorem v11_real (h1 : ∀ i, IsReal (x1 i)) (h3 : ∀ i, IsReal (x3 i)) (h4 : ∀ i, IsReal (x4 i)) (h5 : ∀ i, IsReal (x5 i))
    (h6 : ∀ i, IsReal (x6 i)) (i : S4096x1024.Idx) : IsReal (val_main_v11 (F := Ideal) x1 x3 x4 x5 x6 i) := by
  rw [val_main_v11_apply, Ideal.addf_def]
  exact (v8_real x1 x3 x4 x5 h1 h3 h4 h5 i).add (v10_real x6 h6 i)

end Chain

/-- At a real pre-activation r the gate 1 / (1 + exp(−r)) is the positive real (1 + exp(−r))⁻¹: the exponential of a
    real is a positive real, so the denominator is a real above one, not zero, and the quotient is the product of one
    with its reciprocal. -/
theorem gate_of_real (r : ℝ) :
    Ideal.div (1 : EReal) ((1 : EReal) + Ideal.exp (-(r : EReal))) = ((1 / (1 + Real.exp (-r)) : ℝ) : EReal) := by
  have hpos : (0 : ℝ) < 1 + Real.exp (-r) := by positivity
  have e1 : (1 : EReal) + Ideal.exp (-(r : EReal)) = ((1 + Real.exp (-r) : ℝ) : EReal) := by
    rw [← EReal.coe_neg, Ideal.exp_coe, EReal.coe_add, EReal.coe_one]
  rw [e1, Ideal.div_coe hpos.ne', one_mul]

/-- Every gate is a positive real. -/
theorem gate_pos (x1 : (⟨S4096x32x1024, .f32⟩ : BufTy).Contents (Elt Ideal)) (x3 : (⟨S256x1024, .f32⟩ : BufTy).Contents (Elt Ideal))
    (x4 : (⟨S256, .f32⟩ : BufTy).Contents (Elt Ideal)) (x5 : (⟨S1024x256, .f32⟩ : BufTy).Contents (Elt Ideal))
    (x6 : (⟨S1024, .f32⟩ : BufTy).Contents (Elt Ideal))
    (h1 : ∀ i, IsReal (x1 i)) (h3 : ∀ i, IsReal (x3 i)) (h4 : ∀ i, IsReal (x4 i)) (h5 : ∀ i, IsReal (x5 i))
    (h6 : ∀ i, IsReal (x6 i)) (i : S4096x1024.Idx) :
    ∃ r : ℝ, 0 < r ∧ val_main_v17 (F := Ideal) x1 x3 x4 x5 x6 i = (r : EReal) := by
  obtain ⟨r, hr⟩ := v11_real x1 x3 x4 x5 x6 h1 h3 h4 h5 h6 i
  refine ⟨1 / (1 + Real.exp (-r)), by positivity, ?_⟩
  rw [val_main_v17_apply, val_main_v16_apply, val_main_cst_0_apply, val_main_v15_apply, val_main_v14_apply,
    val_main_cst_apply, val_main_v13_apply, val_main_v12_apply, hr]
  rw [Ideal.hostDivf_def, Ideal.addf_def, Ideal.hostUnary_exp_def, Ideal.hostNegf_def, Ideal.negf_def, Ideal.ofBits_def,
    Ideal.ofBits_one_f32]
  exact gate_of_real r

end Cert.PreFacts

end
-- ==== Proof.StagedArrays.lean ====
/-
  The four arrays the kernel stages, as the jnp code before the call leaves them.

  Before the call the program sums each image's 36 region vectors (s), squares that (s²), forms the gate
  g = 1 / (1 + exp(−(cap₀ W_redᵀ + b_red) W_kpᵀ − b_kp)) of each caption's first token cap₀, the unit direction
  ĉ = cap₀ / ‖cap₀‖, and the products g·ĉ and g²; then it narrows the four to bf16, which at the extended reals changes
  nothing. These are, operation for operation, the reference's own intermediate arrays.
-/
import proofs.«125073_j55267639165045_2_alg».proof.Proof.Gen.KernelIdeal.Frame
import proofs.«125073_j55267639165045_2_alg».proof.Proof.Gen.ReferenceIdeal.Read
import Idealize.ShloMosaic.Lib.StableHlo.Run

noncomputable section

namespace Cert.KernelIdeal.Staged

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

set_option maxHeartbeats 2000000 in
/-- The first staged array is the summed image vectors s. -/
theorem staged_s (c : Dev nD) :
    (V (F := Ideal) m c main_v28 : (⟨2, ![4096, 1024]⟩ : Shape).Idx → EReal)
      = Cert.ReferenceIdeal.Read.val_main_v18 (F := Ideal) (m ((c : Thread nD τ).loc main_arg0)) := by
  dsimp only [Gen.V, Gen.hostOps0]
  after_results_simp
  rfl

set_option maxHeartbeats 2000000 in
/-- The second is its entrywise square s². -/
theorem staged_s2 (c : Dev nD) :
    (V (F := Ideal) m c main_v29 : (⟨2, ![4096, 1024]⟩ : Shape).Idx → EReal)
      = Cert.ReferenceIdeal.Read.val_main_v28 (F := Ideal) (m ((c : Thread nD τ).loc main_arg0)) := by
  dsimp only [Gen.V, Gen.hostOps0]
  after_results_simp
  rfl

set_option maxHeartbeats 2000000 in
/-- The third is the gated caption direction g·ĉ. -/
theorem staged_gc (c : Dev nD) :
    (V (F := Ideal) m c main_v30 : (⟨2, ![4096, 1024]⟩ : Shape).Idx → EReal)
      = Cert.ReferenceIdeal.Read.val_main_v25 (F := Ideal) (m ((c : Thread nD τ).loc main_arg1))
          (m ((c : Thread nD τ).loc main_arg3)) (m ((c : Thread nD τ).loc main_arg4))
          (m ((c : Thread nD τ).loc main_arg5)) (m ((c : Thread nD τ).loc main_arg6)) := by
  dsimp only [Gen.V, Gen.hostOps0]
  after_results_simp
  rfl

set_option maxHeartbeats 2000000 in
/-- The fourth is the squared gate g². -/
theorem staged_g2 (c : Dev nD) :
    (V (F := Ideal) m c main_v31 : (⟨2, ![4096, 1024]⟩ : Shape).Idx → EReal)
      = Cert.ReferenceIdeal.Read.val_main_v29 (F := Ideal) (m ((c : Thread nD τ).loc main_arg1))
          (m ((c : Thread nD τ).loc main_arg3)) (m ((c : Thread nD τ).loc main_arg4))
          (m ((c : Thread nD τ).loc main_arg5)) (m ((c : Thread nD τ).loc main_arg6)) := by
  dsimp only [Gen.V, Gen.hostOps0]
  after_results_simp
  rfl

end Cert.KernelIdeal.Staged

end
-- ==== Proof.LibRowsDot.lean ====
/-
  A product of a matrix with the transpose of another, A · Bᵀ ("bi,hi->bh": both operands contracted on their last
  axis), as a kernel's `tpu.matmul` into the zero accumulator, read at the extended reals at an index given by
  coordinates: entry (p, q) is the sum over k of A(p, k) · B(q, k). Stated for arbitrary extents and operand formats,
  over the library's dimension numbers `DotDims.transposedRhs M K N`.
-/
import Idealize.ShloMosaic.Lib.ValueIdx
import Idealize.ShloMosaic.PureOps.Ideal.Laws

namespace Cert.Lib.RowsDot

open Idealize.ShloMosaic Idealize.ShloMosaic.ValueIdx

variable {M K N : ℕ} {φ₁ φ₂ : FTy}

/-- The left operand's row is the output's row. -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The right operand's row is the output's column. -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- Entry (p, q) of A · Bᵀ accumulated into zero is the sum over k of A(p, k) · B(q, k). -/
theorem matmul_zero_apply (A : FVec Ideal ⟨2, ![M, K]⟩ φ₁) (B : FVec Ideal ⟨2, ![N, K]⟩ φ₂) (p : Fin M) (q : Fin N) :
    matmul (DotDims.transposedRhs M K N) none A B (constant ⟨2, ![M, N]⟩ .f32 0x00000000#32) (ix2 p q)
      = ∑ k : Fin K, A (ix2 p k) * B (ix2 q k) := by
  simp only [matmul]
  rw [Ideal.matmul_constant_zero_apply,
    ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q)
      ((contrEquiv1 (DotDims.transposedRhs M K N) K rfl rfl).symm k) = ix2 p k := funext fun a => Fin.ext (by
    match a with
    | ⟨0, _⟩ => exact lhs_row _ _
    | ⟨1, _⟩ => exact ((DotDims.transposedRhs M K N).lhsIdx_val_of_single rfl _ _).trans hk)
  have er : (DotDims.transposedRhs M K N).rhsIdx (ix2 p q)
      ((contrEquiv1 (DotDims.transposedRhs M K N) K rfl rfl).symm k) = ix2 q k := funext fun a => Fin.ext (by
    match a with
    | ⟨0, _⟩ => exact rhs_row _ _
    | ⟨1, _⟩ => exact ((DotDims.transposedRhs M K N).rhsIdx_val_of_single rfl _ _).trans hk)
  rw [el, er]

end Cert.Lib.RowsDot
-- ==== Proof.TileEntry.lean ====
/-
  One tile of the similarity matrix, entry by entry.

  At a grid point the body holds a [1024,1024] block of the summed image vectors s and of their squares s², and a
  [512,1024] block of the gated caption directions g·ĉ and of the squared gates g². It stores the [1024,512] tile whose
  entry (p, q) is (∑ₖ s(p,k) · (g·ĉ)(q,k)) · rsqrt (∑ₖ s²(p,k) · g²(q,k)): two products of a matrix with a transposed
  matrix, accumulated from zero, the second under a reciprocal square root. `entry` is that expression over whole
  arrays, at an image b and a caption i.
-/
import proofs.«125073_j55267639165045_2_alg».proof.Proof.Gen.KernelIdeal.Skeleton
import proofs.«125073_j55267639165045_2_alg».proof.Proof.LibRowsDot
import Idealize.ShloMosaic.Lib.ValueIdx
import Idealize.ShloMosaic.Lib.Pipeline.Value

noncomputable section

namespace Cert.KernelIdeal.Tile

open Idealize.ShloMosaic Idealize.ShloMosaic.ValueIdx Cert.KernelIdeal Cert.KernelIdeal.Gen

/-- Entry (b, i) of the similarity matrix from the four staged arrays: the summed image vectors `S`, their squares
    `S2`, the gated caption directions `GC` and the squared gates `G2`. -/
def entry (S GC S2 G2 : (⟨2, ![4096, 1024]⟩ : Shape).Idx → EReal) (b i : Fin 4096) : EReal :=
  (∑ k : Fin 1024, S (ix2 b k) * GC (ix2 i k)) * Ideal.rsqrt (∑ k : Fin 1024, S2 (ix2 b k) * G2 (ix2 i k))

/-- The printed dimension numbers of the body's two products are "both operands contracted on their last axis". -/
theorem dims_eq : dot_S1024x1024_S512x1024_S1024x512_1_1_0_0_n_n = DotDims.transposedRhs 1024 1024 512 := rfl

/-- The stored tile at (p, q): the two row-by-row products and the reciprocal root, over the loaded blocks. -/
theorem pay_apply (x0 x1 : Vec Ideal S1024x1024 .bf16) (x2 x3 : Vec Ideal S512x1024 .bf16) (p : Fin 1024) (q : Fin 512) :
    k0_pay1 (F := Ideal) x0 x1 x2 x3 (ix2 p q)
      = (∑ k : Fin 1024, x0 (ix2 p k) * x2 (ix2 q k)) * Ideal.rsqrt (∑ k : Fin 1024, x1 (ix2 p k) * x3 (ix2 q k)) := by
  unfold k0_pay1
  simp only [shapeCast_self]
  rw [dims_eq]
  show (matmul (F := Ideal) (DotDims.transposedRhs 1024 1024 512) none x0 x2 (constant (F := Ideal) ⟨2, ![1024, 512]⟩ .f32 0x00000000#32) (ix2 p q) : EReal)
      * Ideal.rsqrt (matmul (F := Ideal) (DotDims.transposedRhs 1024 1024 512) none x1 x3 (constant (F := Ideal) ⟨2, ![1024, 512]⟩ .f32 0x00000000#32) (ix2 p q)) = _
  rw [Cert.Lib.RowsDot.matmul_zero_apply, Cert.Lib.RowsDot.matmul_zero_apply]

/-- The stored tile at an index y of the block is `entry` at the image and caption whose rows the blocks hold there. -/
theorem pay_entry (x0 x1 : Vec Ideal S1024x1024 .bf16) (x2 x3 : Vec Ideal S512x1024 .bf16)
    (S GC S2 G2 : (⟨2, ![4096, 1024]⟩ : Shape).Idx → EReal) (y : S1024x512.Idx) (b i : Fin 4096)
    (h0 : ∀ k : Fin 1024, x0 (ix2 (y 0) k) = S (ix2 b k)) (h1 : ∀ k : Fin 1024, x1 (ix2 (y 0) k) = S2 (ix2 b k))
    (h2 : ∀ k : Fin 1024, x2 (ix2 (y 1) k) = GC (ix2 i k)) (h3 : ∀ k : Fin 1024, x3 (ix2 (y 1) k) = G2 (ix2 i k)) :
    k0_pay1 (F := Ideal) x0 x1 x2 x3 y = entry S GC S2 G2 b i := by
  obtain ⟨p, q, rfl⟩ : ∃ (p : Fin 1024) (q : Fin 512), y = ix2 p q := ⟨y 0, y 1, eq_ix2 y⟩
  rw [pay_apply]
  unfold entry
  have e0 : ∀ k : Fin 1024, x0 (ix2 p k) = S (ix2 b k) := h0
  have e1 : ∀ k : Fin 1024, x1 (ix2 p k) = S2 (ix2 b k) := h1
  have e2 : ∀ k : Fin 1024, x2 (ix2 q k) = GC (ix2 i k) := h2
  have e3 : ∀ k : Fin 1024, x3 (ix2 q k) = G2 (ix2 i k) := h3
  simp only [e0, e1, e2, e3]

end Cert.KernelIdeal.Tile

end
-- ==== Proof.WholeMatrix.lean ====
/-
  From tiles to the whole similarity matrix.

  The grid has 4 × 8 points; point (u, v) reads rows 1024u … 1024u+1023 of the image-side arrays (s and s², all 1024
  columns) and rows 512v … 512v+511 of the caption-side arrays (g·ĉ and g²), and writes the [1024,512] tile at block
  (u, v) of the [4096,4096] result. So the tile's entry (p, q) is the matrix entry at image 1024u + p and caption
  512v + q, and the 32 tiles cover the matrix: after the run the result array is `sims`, one function of the four
  staged arrays.
-/
import proofs.«125073_j55267639165045_2_alg».proof.Proof.Gen.KernelIdeal.Value
import proofs.«125073_j55267639165045_2_alg».proof.Proof.TileEntry
import Idealize.ShloMosaic.Lib.Pipeline.Value

noncomputable section

namespace Cert.KernelIdeal.Whole

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value Cert.KernelIdeal.Tile

variable (m : (ℓ : Loc nD τ sig) → Buf (Elt Ideal) ℓ) (ρ : Dev nD → PrngReg)

theorem hz : (![0, 0] : Fin 2 → Nat) = fun _ => 0 := funext fun a => by fin_cases a <;> rfl

/-- The whole similarity matrix from the four arrays as the call finds them: entry (b, i) is `entry` at image b and
    caption i. -/
def sims (c : Dev nD) : S4096x4096.Idx → EReal := fun j =>
  entry (V (F := Ideal) m c main_v28) (V (F := Ideal) m c main_v30) (V (F := Ideal) m c main_v29) (V (F := Ideal) m c main_v31)
    (j 0) (j 1)

/-- The block index maps over the grid: the image-side windows follow the tile's block row, the caption-side windows
    its block column, and both take all columns of their arrays. -/
theorem idx_facts : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = win0_4.index t (1 : Fin 2) ∧ win0_2.index t (1 : Fin 2) = 0
    ∧ win0_3.index t (0 : Fin 2) = win0_4.index t (1 : Fin 2) ∧ win0_3.index t (1 : Fin 2) = 0
    ∧ win0_4.index t (0 : Fin 2) ≤ 3 ∧ win0_4.index t (1 : Fin 2) ≤ 7 :=
  (by decide +kernel : ∀ t : Fin grid0.N, _)

/-- Every block of the result is some point's. -/
theorem idx_onto : ∀ (q0 : Fin 4) (q1 : Fin 8), ∃ t : Fin cfg0.N, win0_4.index t = ![q0.val, q1.val] :=
  (by decide +kernel : ∀ (q0 : Fin 4) (q1 : Fin 8), ∃ t : Fin grid0.N, win0_4.index t = ![q0.val, q1.val])

/-- What point t writes back is block t of `sims`. -/
theorem flushed_eq (c : Dev nD) (t : Fin cfg0.N) :
    (dats m 0 c).flushed 4 t = ((cfg0.win 4).blk t).view.read (Elt Ideal) (sims m c) := by
  rw [flushed4]
  unfold out0_4
  rw [View.canon_unit_zero hz]
  simp only [View.ld_unit_zero (S := S1024x1024) hz, View.ld_unit_zero (S := S512x1024) hz]
  obtain ⟨e00, e01, e10, e11, e20, e21, e30, e31, b0, b1⟩ := idx_facts t
  funext y
  show k0_pay1 (F := Ideal) (iblk m c 0 t) (iblk m c 1 t) (iblk m c 2 t) (iblk m c 3 t) y
      = sims m c (((cfg0.win 4).blk t).view.emb y)
  unfold sims
  refine pay_entry (iblk m c 0 t) (iblk m c 1 t) (iblk m c 2 t) (iblk m c 3 t)
    (V (F := Ideal) m c main_v28) (V (F := Ideal) m c main_v30) (V (F := Ideal) m c main_v29) (V (F := Ideal) m c main_v31)
    y _ _ ?_ ?_ ?_ ?_
  · intro k
    unfold iblk
    rw [View.read_apply]
    show V (F := Ideal) m c main_v28 _ = V (F := Ideal) m c main_v28 _
    refine congrArg (V (F := Ideal) m c main_v28) (funext fun a => Fin.ext ?_)
    match a with
    | ⟨0, _⟩ => show win0_0.index t (0 : Fin 2) * 1024 + 1 * (y 0).val = win0_4.index t (0 : Fin 2) * 1024 + 1 * (y 0).val; omega
    | ⟨1, _⟩ => show win0_0.index t (1 : Fin 2) * 1024 + 1 * k.val = k.val; omega
  · intro k
    unfold iblk
    rw [View.read_apply]
    show V (F := Ideal) m c main_v29 _ = V (F := Ideal) m c main_v29 _
    refine congrArg (V (F := Ideal) m c main_v29) (funext fun a => Fin.ext ?_)
    match a with
    | ⟨0, _⟩ => show win0_1.index t (0 : Fin 2) * 1024 + 1 * (y 0).val = win0_4.index t (0 : Fin 2) * 1024 + 1 * (y 0).val; omega
    | ⟨1, _⟩ => show win0_1.index t (1 : Fin 2) * 1024 + 1 * k.val = k.val; omega
  · intro k
    unfold iblk
    rw [View.read_apply]
    show V (F := Ideal) m c main_v30 _ = V (F := Ideal) m c main_v30 _
    refine congrArg (V (F := Ideal) m c main_v30) (funext fun a => Fin.ext ?_)
    match a with
    | ⟨0, _⟩ => show win0_2.index t (0 : Fin 2) * 512 + 1 * (y 1).val = win0_4.index t (1 : Fin 2) * 512 + 1 * (y 1).val; omega
    | ⟨1, _⟩ => show win0_2.index t (1 : Fin 2) * 1024 + 1 * k.val = k.val; omega
  · intro k
    unfold iblk
    rw [View.read_apply]
    show V (F := Ideal) m c main_v31 _ = V (F := Ideal) m c main_v31 _
    refine congrArg (V (F := Ideal) m c main_v31) (funext fun a => Fin.ext ?_)
    match a with
    | ⟨0, _⟩ => show win0_3.index t (0 : Fin 2) * 512 + 1 * (y 1).val = win0_4.index t (1 : Fin 2) * 512 + 1 * (y 1).val; omega
    | ⟨1, _⟩ => show win0_3.index t (1 : Fin 2) * 1024 + 1 * k.val = k.val; omega

/-- An index of the matrix is in point t's tile iff each coordinate is in the tile's range on its axis. -/
theorem mem_blk (t : Fin cfg0.N) (i : S4096x4096.Idx) :
    i ∈ ((cfg0.win 4).blk t).view.set ↔ ∀ a : Fin 2, win0_4.index t a * S1024x512.size a ≤ (i a).val
      ∧ (i a).val < win0_4.index t a * S1024x512.size a + S1024x512.size a := by
  show i ∈ ((View.whole main_v32).slice (win0_4.rect t)).set ↔ _
  rw [View.set_slice_whole, Rect.mem_set_unit]
  exact Iff.rfl

/-- The tiles cover the matrix: entry (b, i) lies in the tile at block (b / 1024, i / 512). -/
theorem cover (i : S4096x4096.Idx) :
    ∃ t : Fin cfg0.N, (cfg0.win 4).flush t = true ∧ i ∈ ((cfg0.win 4).blk t).view.set := by
  have hi0 : (i 0).val < 4096 := (i 0).isLt
  have hi1 : (i 1).val < 4096 := (i 1).isLt
  obtain ⟨t, ht⟩ := idx_onto ⟨(i 0).val / 1024, by omega⟩ ⟨(i 1).val / 512, by omega⟩
  have q0 : win0_4.index t (0 : Fin 2) = (i 0).val / 1024 := congrFun ht 0
  have q1 : win0_4.index t (1 : Fin 2) = (i 1).val / 512 := congrFun ht 1
  refine ⟨t, flush0_4 t, ?_⟩
  rw [mem_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 512 ≤ (i 1).val ∧ (i 1).val < win0_4.index t (1 : Fin 2) * 512 + 512; omega

/-- After the run the result array is `sims`. -/
theorem final (c : Dev nD) : (dats m 0 c).arrAt 4 cfg0.N = sims m c :=
  (dats m 0 c).arrAt_eq_of_cover 4 (sims m c) (fun t _ => flushed_eq m c t) cover

/-- The kernel's run, read: the result array at `sims`, the arguments unchanged. -/
theorem run : θ_run defs (onTc (τ := τ) (main (F := Ideal))) ⟨m, fun _ => 0, ρ⟩ fun r => ∀ c : Dev nD,
      r.2.mem ((c : Thread nD τ).loc main_v32) = sims m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.KernelIdeal.Whole

end
-- ==== Proof.CosineAlgebra.lean ====
/-
  The one law that joins the two programs, on the extended reals.

  Both programs compute, for an image b and a caption i, a numerator N = ∑ₖ s(b,k) · (g(i,k) · ĉ(i,k)) and the squared
  norm D = ∑ₖ s(b,k)² · g(i,k)² of the gated image vector. One returns N · rsqrt D, the other N / √D. For a finite
  D > 0 both are N · (√D)⁻¹, whatever extended real N is; at D = 0 they part (N · ⊤ against N / 0), which is why the
  statement asks every image's summed vector to be nonzero. D is finite and positive as soon as the s(b,k) are finite,
  not all zero, and the gates g(i,k) are positive reals.
-/
import proofs.«125073_j55267639165045_2_alg».proof.Proof.LibFinite
import Mathlib.Analysis.SpecialFunctions.Sqrt

namespace Cert.Cosine

open Idealize.ShloMosaic Cert.Finite

/-- The cast of a finite sum of reals is the sum of the casts. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- For a positive real D, multiplying by the reciprocal square root is dividing by the square root. -/
theorem mul_rsqrt_eq_div_sqrt (N : EReal) {D : ℝ} (hD : 0 < D) :
    N * Ideal.rsqrt (D : EReal) = Ideal.div N (Ideal.sqrt (D : EReal)) := by
  rw [Ideal.rsqrt_coe, if_neg (not_lt.2 hD.le), if_neg hD.ne', Ideal.sqrt_coe, if_neg (not_lt.2 hD.le),
    Ideal.div_coe (Real.sqrt_pos.2 hD).ne', one_div]

/-- The squared norm of the gated vector is a positive real: the entries are finite, some entry is nonzero (their
    squares sum to a positive value) and every gate is a positive real. -/
theorem gated_norm_pos {K : ℕ} (a g : Fin K → EReal) (ha : ∀ k, IsReal (a k))
    (hg : ∀ k, ∃ r : ℝ, 0 < r ∧ g k = (r : EReal)) (hs : (0 : EReal) < ∑ k, a k * a k) :
    ∃ D : ℝ, 0 < D ∧ ∑ k, (a k * a k) * (g k * g k) = (D : EReal) := by
  choose a' ha' using ha
  choose g' hg0 hg' using hg
  refine ⟨∑ k, (a' k * a' k) * (g' k * g' k), ?_, ?_⟩
  · have hs' : (0 : ℝ) < ∑ k, a' k * a' k := by
      have : ((0 : ℝ) : EReal) < ((∑ k, a' k * a' k : ℝ) : EReal) := by
        rw [coe_sum]; simpa [ha', EReal.coe_mul] using hs
      exact_mod_cast this
    obtain ⟨k, -, hk⟩ : ∃ k ∈ Finset.univ, 0 < a' k * a' k := by
      by_contra hcon
      have hle : ∀ k ∈ (Finset.univ : Finset (Fin K)), a' k * a' k ≤ 0 := fun k hk => not_lt.1 fun h => hcon ⟨k, hk, h⟩
      exact absurd hs' (not_lt.2 (Finset.sum_nonpos hle))
    refine Finset.sum_pos' (fun j _ => mul_nonneg (mul_self_nonneg _) (mul_self_nonneg _)) ⟨k, Finset.mem_univ k, ?_⟩
    exact mul_pos hk (mul_pos (hg0 k) (hg0 k))
  · rw [coe_sum]
    refine Finset.sum_congr rfl fun k _ => ?_
    rw [ha' k, hg' k, EReal.coe_mul, EReal.coe_mul, EReal.coe_mul]

/-- The law: with the image's entries finite and not all zero and the gates positive reals, the product of a
    numerator with the reciprocal root of the gated squared norm is its quotient by the root. -/
theorem mul_rsqrt_gated (N : EReal) {K : ℕ} (a g : Fin K → EReal) (ha : ∀ k, IsReal (a k))
    (hg : ∀ k, ∃ r : ℝ, 0 < r ∧ g k = (r : EReal)) (hs : (0 : EReal) < ∑ k, a k * a k) :
    N * Ideal.rsqrt (∑ k, (a k * a k) * (g k * g k)) = Ideal.div N (Ideal.sqrt (∑ k, (a k * a k) * (g k * g k))) := by
  obtain ⟨D, hD, hE⟩ := gated_norm_pos a g ha hg hs
  rw [hE]
  exact mul_rsqrt_eq_div_sqrt N hD

end Cert.Cosine
-- ==== Proof.Bridge.lean ====
/-
  The reference's result entry by entry, and the bridge.

  The reference forms numer = s · (g·ĉ)ᵀ and denom = √(s² · (g²)ᵀ) as whole [4096,4096] matrices and divides. Entry
  (b, i) is therefore (∑ₖ s(b,k) · (g·ĉ)(i,k)) / √(∑ₖ s²(b,k) · g²(i,k)) — the transposes only swap the roles of the two
  coordinates. The kernel's entry is the same numerator times the reciprocal root of the same sum, and the sum is
  ∑ₖ s(b,k)² · g(i,k)², a positive real under the precondition; there the two forms agree.
-/
import proofs.«125073_j55267639165045_2_alg».proof.Proof.Gen.ReferenceIdeal.Read
import proofs.«125073_j55267639165045_2_alg».proof.Proof.CosineAlgebra
import proofs.«125073_j55267639165045_2_alg».proof.Proof.TileEntry

noncomputable section

namespace Cert.Bridge

open Idealize.ShloMosaic Idealize.ShloMosaic.ValueIdx Cert.Finite Cert.ReferenceIdeal Cert.ReferenceIdeal.Read

variable (x0 : (⟨S4096x36x1024, .f32⟩ : BufTy).Contents (Elt Ideal)) (x1 : (⟨S4096x32x1024, .f32⟩ : BufTy).Contents (Elt Ideal))
  (x3 : (⟨S256x1024, .f32⟩ : BufTy).Contents (Elt Ideal)) (x4 : (⟨S256, .f32⟩ : BufTy).Contents (Elt Ideal))
  (x5 : (⟨S1024x256, .f32⟩ : BufTy).Contents (Elt Ideal)) (x6 : (⟨S1024, .f32⟩ : BufTy).Contents (Elt Ideal))

/-- Entry (b, i) of the reference's result: the quotient of the numerator's entry by the root of the squared norm's. -/
theorem ref_entry (j : S4096x4096.Idx) :
    val_main_v33 (F := Ideal) x0 x1 x3 x4 x5 x6 j
      = Ideal.div (∑ k : Fin 1024, val_main_v18 (F := Ideal) x0 (ix2 (j 0) k) * val_main_v25 (F := Ideal) x1 x3 x4 x5 x6 (ix2 (j 1) k))
          (Ideal.sqrt (∑ k : Fin 1024, val_main_v28 (F := Ideal) x0 (ix2 (j 0) k) * val_main_v29 (F := Ideal) x1 x3 x4 x5 x6 (ix2 (j 1) k))) := by
  have el : ∀ k : Fin 1024, lidx_main_v27 j k = ix2 (j 0) k := fun k => funext fun a => Fin.ext (by
    match a with | ⟨0, _⟩ => rfl | ⟨1, _⟩ => rfl)
  have er : ∀ k : Fin 1024, idx_main_v26 (ridx_main_v27 j k) = ix2 (j 1) k := fun k => funext fun a => Fin.ext (by
    match a with | ⟨0, _⟩ => rfl | ⟨1, _⟩ => rfl)
  have el' : ∀ k : Fin 1024, lidx_main_v31 j k = ix2 (j 0) k := fun k => funext fun a => Fin.ext (by
    match a with | ⟨0, _⟩ => rfl | ⟨1, _⟩ => rfl)
  have er' : ∀ k : Fin 1024, idx_main_v30 (ridx_main_v31 j k) = ix2 (j 1) k := fun k => funext fun a => Fin.ext (by
    match a with | ⟨0, _⟩ => rfl | ⟨1, _⟩ => rfl)
  rw [val_main_v33_apply, val_main_v27_apply, val_main_v32_apply, val_main_v31_apply]
  simp only [val_main_v26_apply, val_main_v30_apply, el, er, el', er', Ideal.hostDivf_def, Ideal.hostUnary_sqrt_def]
  rfl

/-- THE BRIDGE: with the summed image vectors finite and, for every image, not all zero, and every gate a positive
    real, the kernel's entry of the four arrays is the reference's. -/
theorem entry_eq_ref (hs : ∀ i, IsReal (val_main_v18 (F := Ideal) x0 i))
    (hg : ∀ i, ∃ r : ℝ, 0 < r ∧ val_main_v17 (F := Ideal) x1 x3 x4 x5 x6 i = (r : EReal))
    (hpos : ∀ b : Fin 4096, (0 : EReal) < ∑ k : Fin 1024, val_main_v18 (F := Ideal) x0 (ix2 b k) * val_main_v18 (F := Ideal) x0 (ix2 b k))
    (j : S4096x4096.Idx) :
    Cert.KernelIdeal.Tile.entry (val_main_v18 (F := Ideal) x0) (val_main_v25 (F := Ideal) x1 x3 x4 x5 x6)
        (val_main_v28 (F := Ideal) x0) (val_main_v29 (F := Ideal) x1 x3 x4 x5 x6) (j 0) (j 1)
      = val_main_v33 (F := Ideal) x0 x1 x3 x4 x5 x6 j := by
  rw [ref_entry]
  unfold Cert.KernelIdeal.Tile.entry
  have e28 : ∀ k : Fin 1024, val_main_v28 (F := Ideal) x0 (ix2 (j 0) k)
      = val_main_v18 (F := Ideal) x0 (ix2 (j 0) k) * val_main_v18 (F := Ideal) x0 (ix2 (j 0) k) := fun k => rfl
  have e29 : ∀ k : Fin 1024, val_main_v29 (F := Ideal) x1 x3 x4 x5 x6 (ix2 (j 1) k)
      = val_main_v17 (F := Ideal) x1 x3 x4 x5 x6 (ix2 (j 1) k) * val_main_v17 (F := Ideal) x1 x3 x4 x5 x6 (ix2 (j 1) k) := fun k => rfl
  simp only [e28, e29]
  exact Cert.Cosine.mul_rsqrt_gated _ (fun k : Fin 1024 => val_main_v18 (F := Ideal) x0 (ix2 (j 0) k))
    (fun k : Fin 1024 => val_main_v17 (F := Ideal) x1 x3 x4 x5 x6 (ix2 (j 1) k)) (fun k => hs _) (fun k => hg _) (hpos (j 0))

end Cert.Bridge

end
-- ==== Proof.lean ====
/-
  A cosine-similarity matrix between 4096 images and 4096 captions, computed tile by tile, against its jnp reference.

  Both programs start with the same jnp code: s = the sum of each image's 36 region vectors; cap₀ = each caption's first
  token; the gate g = 1 / (1 + exp(−((cap₀ W_redᵀ + b_red) W_kpᵀ + b_kp))); the unit direction ĉ = cap₀ / ‖cap₀‖. The
  reference then returns (s (g·ĉ)ᵀ) / √(s² (g²)ᵀ). The kernel narrows s, s², g·ĉ and g² to bf16 — the identity on the
  extended reals — and, on a 4 × 8 grid of [1024,512] tiles, stores (s (g·ĉ)ᵀ) · rsqrt (s² (g²)ᵀ).

  Entry (b, i) of either result is built from N = ∑ₖ s(b,k) g(i,k) ĉ(i,k) and D = ∑ₖ s(b,k)² g(i,k)²: the kernel's is
  N · rsqrt D, the reference's N / √D. For a finite D > 0 both are N · (√D)⁻¹ whatever N is. At D = 0 — an image
  whose region vectors sum to the zero vector — the reference divides 0 by 0, and the two junk values differ; the
  precondition therefore asks, besides finite inputs, that every image's summed vector have a positive squared norm.
  Then D is finite (s is a finite sum of finite entries, g lies in (0,1)) and positive (some s(b,k) ≠ 0 and every
  g(i,k) > 0).

  The modules: CosineAlgebra (the law on the extended reals), PreFacts (what the precondition gives), TileEntry (a tile's
  entry as the two row-by-row products), StagedArrays (the four arrays the call finds are the reference's intermediate
  arrays), WholeMatrix (the 32 tiles are one matrix), Bridge (the reference's entry, and the equality).
-/
import proofs.«125073_j55267639165045_2_alg».proof.Defs
import proofs.«125073_j55267639165045_2_alg».proof.Proof.Gen.Kernel
import proofs.«125073_j55267639165045_2_alg».proof.Proof.Gen.Kernel.Skeleton
import proofs.«125073_j55267639165045_2_alg».proof.Proof.Gen.Kernel.Launch
import proofs.«125073_j55267639165045_2_alg».proof.Proof.Gen.Kernel.Points
import proofs.«125073_j55267639165045_2_alg».proof.Proof.Gen.Kernel.Frame
import proofs.«125073_j55267639165045_2_alg».proof.Proof.Gen.KernelIdeal
import proofs.«125073_j55267639165045_2_alg».proof.Proof.Gen.KernelIdeal.Skeleton
import proofs.«125073_j55267639165045_2_alg».proof.Proof.Gen.KernelIdeal.Launch
import proofs.«125073_j55267639165045_2_alg».proof.Proof.Gen.KernelIdeal.Points
import proofs.«125073_j55267639165045_2_alg».proof.Proof.Gen.KernelIdeal.Frame
import proofs.«125073_j55267639165045_2_alg».proof.Proof.Gen.ReferenceIdeal
import proofs.«125073_j55267639165045_2_alg».proof.Proof.Gen.Pre_finite_inputs
import proofs.«125073_j55267639165045_2_alg».proof.Proof.Gen.KernelIdeal.Value
import proofs.«125073_j55267639165045_2_alg».proof.Proof.Gen.ReferenceIdeal.Run
import proofs.«125073_j55267639165045_2_alg».proof.Proof.Gen.ReferenceIdeal.Read
import proofs.«125073_j55267639165045_2_alg».proof.Proof.PreFacts
import proofs.«125073_j55267639165045_2_alg».proof.Proof.StagedArrays
import proofs.«125073_j55267639165045_2_alg».proof.Proof.WholeMatrix
import proofs.«125073_j55267639165045_2_alg».proof.Proof.Bridge
import Idealize.ShloMosaic.Adequacy
import Idealize.ShloMosaic.Init

noncomputable section

namespace Cert.Proof

open Idealize.ShloMosaic Idealize.ShloMosaic.TcCoe Idealize.SL.Sem

/-- The three programs run, fault nowhere, and leave their arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Reading the kernel at the extended reals rewrote no operation. -/
theorem preserves : Cert.preserves_Kernel_KernelIdeal := trivial

/-- An entry of the matrix depends on the four arrays only through their values. -/
theorem entry_congr {S S' GC GC' S2 S2' G2 G2' : (⟨2, ![4096, 1024]⟩ : Shape).Idx → EReal} (h1 : S = S') (h2 : GC = GC')
    (h3 : S2 = S2') (h4 : G2 = G2') (b i : Fin 4096) :
    Cert.KernelIdeal.Tile.entry S GC S2 G2 b i = Cert.KernelIdeal.Tile.entry S' GC' S2' G2' b i := by
  subst h1 h2 h3 h4; rfl

/-- From memories agreeing on the arguments, the kernel's result array ends at the matrix `sims` of the four staged
    arrays and the reference's at its own composed term; entry by entry they are the same extended real. -/
theorem algebraic : Cert.algebraic_KernelIdeal_ReferenceIdeal := by
  intro m ρ m' ρ' hpre hagree
  refine ⟨fun c => Cert.KernelIdeal.Whole.sims m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq]
  obtain ⟨a0, a1, -, a3, a4, a5, a6⟩ := hagree c
  rw [a0, a1, a3, a4, a5, a6]
  obtain ⟨f0, f1, f3, f4, f5, f6, hpos⟩ := Cert.PreFacts.of_pre _ _ _ _ _ _ _ (hpre c)
  funext j
  exact ((entry_congr (Cert.KernelIdeal.Staged.staged_s m c) (Cert.KernelIdeal.Staged.staged_gc m c)
    (Cert.KernelIdeal.Staged.staged_s2 m c) (Cert.KernelIdeal.Staged.staged_g2 m c) (j 0) (j 1)).trans
    (Cert.Bridge.entry_eq_ref _ _ _ _ _ _ (fun i => Cert.PreFacts.s_real _ f0 i)
      (fun i => Cert.PreFacts.gate_pos _ _ _ _ _ f1 f3 f4 f5 f6 i) hpos j)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
